-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000x64 : Shape := ⟨3, ![2, 800000, 64]⟩
abbrev S_ : Shape := ⟨0, ![]⟩

class Facts : Prop where
  bcast_S_S2x800000x64 : S_.BroadcastsInDim S2x800000x64 (![] : Fin 0 → Fin S2x800000x64.rank)
  reducesTo_S2x800000x64_S_d0_1_2 : S2x800000x64.ReducesTo [0, 1, 2] S_
  h_S_ : 0 < S_.numel

variable [Facts]

def fn {F : FTy → Type} [FloatOps F] (main_arg0 : FVec F S2x800000x64 .f32) : IVec S_ 1 :=
  let main_v0 : FVec F S2x800000x64 .f32 := Host.absf main_arg0
  let main_cst : FVec F S_ .f32 := constant S_ .f32 0x7F800000#32
  let main_v1 : FVec F S2x800000x64 .f32 := broadcastInDim S2x800000x64 ![] bcast_S_S2x800000x64 main_cst
  let main_v2 : IVec S2x800000x64 1 := cmpf .olt main_v0 main_v1
  let main_c : IVec S_ 1 := constantI S_ 1 1#1
  let main_v3 : IVec S_ 1 := (fun x v => Host.reduce IntOp.andi x v reducesTo_S2x800000x64_S_d0_1_2 h_S_) main_v2 main_c
  main_v3
-- ==== Kernel.lean ====
abbrev S2x800000x64 : Shape := ⟨3, ![2, 800000, 64]⟩
abbrev S2x64x800000 : Shape := ⟨3, ![2, 64, 800000]⟩
abbrev S800000 : Shape := ⟨1, ![800000]⟩
abbrev S2x64x16384 : Shape := ⟨3, ![2, 64, 16384]⟩
abbrev S16384 : Shape := ⟨1, ![16384]⟩
abbrev S1x64x16384 : Shape := ⟨3, ![1, 64, 16384]⟩
abbrev S64x16384 : Shape := ⟨2, ![64, 16384]⟩

abbrev nBuf : Space → Nat
  | .hbm => 3
  | .vmem => 4
  | .smem => 0
  | _ => 0

abbrev bufTy : (tb : Table) → Fin (tcTables nBuf tb) → BufTy
  | .hbm, ⟨0, _⟩ => ⟨S2x800000x64, .f32⟩
  | .hbm, ⟨1, _⟩ => ⟨S2x64x800000, .f32⟩
  | .hbm, ⟨2, _⟩ => ⟨S800000, .f32⟩
  | .local _ .vmem, ⟨0, _⟩ => ⟨S2x64x16384, .f32⟩
  | .local _ .vmem, ⟨1, _⟩ => ⟨S2x64x16384, .f32⟩
  | .local _ .vmem, ⟨2, _⟩ => ⟨S16384, .f32⟩
  | .local _ .vmem, ⟨3, _⟩ => ⟨S16384, .f32⟩
  | _, _ => ⟨S2x800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S2x800000x64_S2x64x800000_0_2_1 : S2x800000x64.Transposes [0, 2, 1] S2x64x800000
  inb_S2x64x16384_S1x64x16384_0_0_0 : ∀ a, (![0, 0, 0] : Fin 3 → Nat) a + S1x64x16384.size a ≤ S2x64x16384.size a
  h_S1x64x16384 : 0 < S1x64x16384.numel
  shapeCasts_S1x64x16384_S64x16384 : S1x64x16384.ShapeCasts S64x16384
  inb_S2x64x16384_S1x64x16384_1_0_0 : ∀ a, (![1, 0, 0] : Fin 3 → Nat) a + S1x64x16384.size a ≤ S2x64x16384.size a
  reduces_S64x16384_S16384 : S64x16384.Reduces [0] S16384
  inb_S16384_S16384_0 : ∀ a, (![0] : Fin 1 → Nat) a + S16384.size a ≤ S16384.size a
  h_S16384 : 0 < S16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2x64x16384.size a < S2x64x800000.size a
  hwx0_0 : ∀ i : grid0.Coords, EltTy.bits .f32 = 32 ∨ (Rect.unit (s := S2x64x800000) (fun a => cc0_transform_0 i a * S2x64x16384.size a) (fun a => (Pipeline.Clip.of (cc0_transform_0 i a) (S2x64x16384.size a) (S2x64x800000.size a)).extent (S2x64x16384.size a)) fun a => Pipeline.Clip.inb (Pipeline.Clip.ok_of (hstart0_0 i a))).WholeWords (EltTy.packing .f32)
  hwxs0_0 : ∀ i : grid0.Coords, EltTy.bits .f32 = 32 ∨ (Rect.unit (s := S2x64x16384) (fun _ => 0) (fun a => (Pipeline.Clip.of (cc0_transform_0 i a) (S2x64x16384.size a) (S2x64x800000.size a)).extent (S2x64x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384.size a < S800000.size a
  hwx0_1 : ∀ i : grid0.Coords, EltTy.bits .f32 = 32 ∨ (Rect.unit (s := S800000) (fun a => cc0_transform_1 i a * S16384.size a) (fun a => (Pipeline.Clip.of (cc0_transform_1 i a) (S16384.size a) (S800000.size a)).extent (S16384.size a)) fun a => Pipeline.Clip.inb (Pipeline.Clip.ok_of (hstart0_1 i a))).WholeWords (EltTy.packing .f32)
  hwxs0_1 : ∀ i : grid0.Coords, EltTy.bits .f32 = 32 ∨ (Rect.unit (s := S16384) (fun _ => 0) (fun a => (Pipeline.Clip.of (cc0_transform_1 i a) (S16384.size a) (S800000.size a)).extent (S16384.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_v0) S2x64x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S16384.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x800000x64 : Shape := ⟨3, ![2, 800000, 64]⟩
abbrev S1x800000x64 : Shape := ⟨3, ![1, 800000, 64]⟩
abbrev S800000x64 : Shape := ⟨2, ![800000, 64]⟩
abbrev S_ : Shape := ⟨0, ![]⟩
abbrev S800000 : Shape := ⟨1, ![800000]⟩

abbrev nBuf : Space → Nat
  | .hbm => 8
  | .vmem => 0
  | .smem => 0
  | _ => 0

abbrev bufTy : (tb : Table) → Fin (tcTables nBuf tb) → BufTy
  | .hbm, ⟨0, _⟩ => ⟨S2x800000x64, .f32⟩
  | .hbm, ⟨1, _⟩ => ⟨S1x800000x64, .f32⟩
  | .hbm, ⟨2, _⟩ => ⟨S800000x64, .f32⟩
  | .hbm, ⟨3, _⟩ => ⟨S1x800000x64, .f32⟩
  | .hbm, ⟨4, _⟩ => ⟨S800000x64, .f32⟩
  | .hbm, ⟨5, _⟩ => ⟨S800000x64, .f32⟩
  | .hbm, ⟨6, _⟩ => ⟨S_, .f32⟩
  | .hbm, ⟨7, _⟩ => ⟨S800000, .f32⟩
  | _, _ => ⟨S2x800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S2x800000x64_S1x800000x64_0_0_0 : S2x800000x64.Slices ![0, 0, 0] S1x800000x64
  shapeCasts_S1x800000x64_S800000x64 : S1x800000x64.ShapeCasts S800000x64
  slices_S2x800000x64_S1x800000x64_1_0_0 : S2x800000x64.Slices ![1, 0, 0] S1x800000x64
  reducesTo_S800000x64_S800000_d1 : S800000x64.ReducesTo [1] S800000
  h_S_ : 0 < S_.numel

variable [Facts₀]

class Facts : Prop extends Facts₀ where

variable [Facts]
-- ==== Proof.BitsBody.lean ====
/-
  The kernel body at one grid point, run once.

  The body is handed two staging buffers: the input block `x : [2, 64, 16384]` (both matrices' columns for 16384
  consecutive rows, transposed so that the row index runs along the last axis) and the output block `[16384]`.
  It loads the two halves of the input block, multiplies them entry by entry, sums the 64 products standing above
  each lane, and stores the 16384 sums over the whole output block. The input block is left as it was; the output
  block ends holding `laneSums x`, a function of the input block alone (the load of the output block that precedes
  the store is dead).
-/
import proofs.«146096_g7834020348429_cont_sun_m_1168_3_alg».proof.Proof.Gen.Kernel.Frame
import proofs.«146096_g7834020348429_cont_sun_m_1168_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first matrix's half of the input block, -/
abbrev rFirst : Rect S2x64x16384 := Rect.unit (s := S2x64x16384) ![0, 0, 0] S1x64x16384.size inb_S2x64x16384_S1x64x16384_0_0_0
/-- the second matrix's half, -/
abbrev rSecond : Rect S2x64x16384 := Rect.unit (s := S2x64x16384) ![1, 0, 0] S1x64x16384.size inb_S2x64x16384_S1x64x16384_1_0_0
/-- and the whole output block. -/
abbrev rOut : Rect S16384 := Rect.unit (s := S16384) ![0] S16384.size inb_S16384_S16384_0

/-- What the body leaves in the output block, from the input block: its one store, over the whole block, of the lane
    sums of the products of the two halves. -/
def laneSums (x : Vec F S2x64x16384 .f32) : Vec F S16384 .f32 :=
  View.canon [⟨rOut, k0_pay1 (View.ld x rFirst) (View.ld x rSecond)⟩]

/-- The store covers the output block. -/
theorem cover_out (p0 : Vec F S16384 .f32) (y : S16384.Idx) :
    ∃ pc ∈ ([⟨rOut, p0⟩] : List (View.Piece (Elt F) S16384 .f32)), y ∈ pc.1.set :=
  View.cover_of_tiled [⟨rOut, p0⟩] S16384.size (by rfl) y

set_option maxHeartbeats 1000000 in
/-- The body on whole staging memrefs, the input's at contents `x` and the output's at anything, runs to the
    continuation with the input's as it was and the output's at `laneSums x`. -/
theorem sound_kernel (c : Dev nD) (E : Set ℕ) (i : grid0.Coords)
    (arg1 : Memref sig .tc .vmem S2x64x16384 .f32) (harg1 : arg1.IsWhole)
    (arg2 : Memref sig .tc .vmem S16384 .f32) (harg2 : arg2.IsWhole)
    (x : Vec F S2x64x16384 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (laneSums x)) -∗ K ⟨⟩))
      ⊢ wp frame (wpE (defs₀ (F := F)) Variants.none c none) E (cc0__dot_rows_kernel i arg1 harg1 arg2 harg2) K := by
  simp only [cc0__dot_rows_kernel_eq_skeleton]; unfold cc0__dot_rows_kernel_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover_out _)

end Cert.Kernel.Body

end
-- ==== Proof.BitsFrame.lean ====
/-
  The word-level kernel runs to the end, faults nowhere and leaves its argument unchanged.

  Nothing is said here of what the result holds: both windows' staging buffers are handed to the body at any
  contents and taken back at any contents, so the only thing asked of the body is that it runs on whole buffers —
  which it does whatever they hold. The argument array is staged by no window (the region reads its transpose), so
  it bypasses the region and is read back as the host's transpose left it: untouched.
-/
import proofs.«146096_g7834020348429_cont_sun_m_1168_3_alg».proof.Proof.BitsBody

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; the staging contents after the body are never read (both
    windows are forgotten), so they are named by a filler; the region's invariant is the scoped rest and the generator
    register, untouched. -/
def dats (_ : Fin 1) (c : Dev nD) : Dat τ (Elt F) Unit ℕ (UR sig nD τ) ℕ cfg0 c where
  A w := V m c (Pipeline.arrRef spec0 w)
  after w t := match w with
    | ⟨0, _⟩ => fun _ => Scalar.ofBits .f32 0#32
    | ⟨1, _⟩ => fun _ => Scalar.ofBits .f32 0#32
  Φ _ := Pipeline.ΦA spec0 c
  q _ := fullShare
  owed _ := 0

/-- The body at any point, on staging buffers holding anything, returns them holding something. -/
theorem sound_body (c : Dev nD) (t : Fin cfg0.N) :
    iprop((dats m 0 c).Φ t.castSucc ∗ (dats m 0 c).owesAt () t.castSucc
        ∗ (∃ X, owns (c : Thread nD τ) (st0_0 t) fullShare X)
        ∗ (∃ X, owns (c : Thread nD τ) (st0_1 t) fullShare X))
      ⊢ wp frame (wpE (defs₀ (F := F)) Variants.none c none) Set.univ (bodyAt0 t) (fun _ =>
        iprop((dats m 0 c).Φ t.succ ∗ (dats m 0 c).owesAt () t.succ
          ∗ (∃ X, owns (c : Thread nD τ) (st0_0 t) fullShare X)
          ∗ (∃ X, owns (c : Thread nD τ) (st0_1 t) fullShare X))) := by
  rw [show (dats m 0 c).Φ t.succ = (dats m 0 c).Φ t.castSucc from rfl,
    show (dats m 0 c).owesAt () t.succ = (dats m 0 c).owesAt () t.castSucc from rfl]
  unfold bodyAt0
  iintro ⟨HΦ, Ho, ⟨%X0, H0⟩, ⟨%X1, H1⟩⟩
  iapply (Cert.Kernel.Body.sound_kernel c Set.univ _ _ _ _ _ X0 _)
  isplitl [H0]; · iexact H0
  isplitl [H1]; · iexists _; iexact H1
  iintro ⟨H0, H1⟩
  isplitl [HΦ]; · iexact HΦ
  isplitl [Ho]; · iexact Ho
  isplitl [H0]; · iexists _; iexact H0
  iexists _; iexact H1

/-- The body obligation with both windows forgotten. -/
theorem body_obligation (c : Dev nD) :
    BodyObligationLoose (dats (F := F) m 0 c) (defs₀ (F := F)) Variants.none () Set.univ (fun _ => true) := fun t => by
  rw [bigSep_W0]
  exact sound_body m c t

set_option backward.isDefEq.respectTransparency.types false in
/-- Every weakly fair execution of the program terminates, and every buffer the region does not stage ends as the
    region found it. -/
theorem run_main : θ_run defs (onTc (τ := τ) (main (F := F))) (s₀ m ρ)
    (Pipeline.RDat.FramePost cfg0 (fun c => (dats m 0 c).toRForget fun _ => true) (V m)) :=
  Pipeline.RDat.θ_run_frame cfgs (0 : Fin 1) launch0 defs₀ Variants.none (fun c => (dats m 0 c).toRForget fun _ => true) m ρ main
    (hbody := fun c => (body_obligation m c).toRForget)
    (hshare := fun c => (dats m 0 c).share_full fun _ => rfl) (howed := fun _ _ => rfl)
    (V := V m) (hmain := hmain m Variants.none) (hA := fun _ _ => rfl) (hΦ := fun _ _ => rfl)

/-- The frame: the argument ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 (by decide) (by decide))).trans (V_main_arg0 m c)) (run_main m ρ)

end Cert.Kernel.FrameRun

end
-- ==== Proof.IdealBody.lean ====
/-
  The kernel body at one grid point, run once.

  The body is handed two staging buffers: the input block `x : [2, 64, 16384]` (both matrices' columns for 16384
  consecutive rows, transposed so that the row index runs along the last axis) and the output block `[16384]`.
  It loads the two halves of the input block, multiplies them entry by entry, sums the 64 products standing above
  each lane, and stores the 16384 sums over the whole output block. The input block is left as it was; the output
  block ends holding `laneSums x`, a function of the input block alone (the load of the output block that precedes
  the store is dead).
-/
import proofs.«146096_g7834020348429_cont_sun_m_1168_3_alg».proof.Proof.Gen.KernelIdeal.Frame
import proofs.«146096_g7834020348429_cont_sun_m_1168_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first matrix's half of the input block, -/
abbrev rFirst : Rect S2x64x16384 := Rect.unit (s := S2x64x16384) ![0, 0, 0] S1x64x16384.size inb_S2x64x16384_S1x64x16384_0_0_0
/-- the second matrix's half, -/
abbrev rSecond : Rect S2x64x16384 := Rect.unit (s := S2x64x16384) ![1, 0, 0] S1x64x16384.size inb_S2x64x16384_S1x64x16384_1_0_0
/-- and the whole output block. -/
abbrev rOut : Rect S16384 := Rect.unit (s := S16384) ![0] S16384.size inb_S16384_S16384_0

/-- What the body leaves in the output block, from the input block: its one store, over the whole block, of the lane
    sums of the products of the two halves. -/
def laneSums (x : Vec F S2x64x16384 .f32) : Vec F S16384 .f32 :=
  View.canon [⟨rOut, k0_pay1 (View.ld x rFirst) (View.ld x rSecond)⟩]

/-- The store covers the output block. -/
theorem cover_out (p0 : Vec F S16384 .f32) (y : S16384.Idx) :
    ∃ pc ∈ ([⟨rOut, p0⟩] : List (View.Piece (Elt F) S16384 .f32)), y ∈ pc.1.set :=
  View.cover_of_tiled [⟨rOut, p0⟩] S16384.size (by rfl) y

set_option maxHeartbeats 1000000 in
/-- The body on whole staging memrefs, the input's at contents `x` and the output's at anything, runs to the
    continuation with the input's as it was and the output's at `laneSums x`. -/
theorem sound_kernel (c : Dev nD) (E : Set ℕ) (i : grid0.Coords)
    (arg1 : Memref sig .tc .vmem S2x64x16384 .f32) (harg1 : arg1.IsWhole)
    (arg2 : Memref sig .tc .vmem S16384 .f32) (harg2 : arg2.IsWhole)
    (x : Vec F S2x64x16384 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (laneSums x)) -∗ K ⟨⟩))
      ⊢ wp frame (wpE (defs₀ (F := F)) Variants.none c none) E (cc0__dot_rows_kernel i arg1 harg1 arg2 harg2) K := by
  simp only [cc0__dot_rows_kernel_eq_skeleton]; unfold cc0__dot_rows_kernel_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover_out _)

end Cert.KernelIdeal.Body

end
-- ==== Proof.IdealPay.lean ====
/-
  The body's arithmetic, read at a lane.

  Over the extended reals the lane sum of the products of the two halves of the input block `x : [2, 64, 16384]`
  is, at lane `j`, the column sum `∑ k, x (0, k, j) * x (1, k, j)`: the cast that drops the unit axis of each
  half reads `(k, j)` at `(0, k, j)` of the half, which is `(a, k, j)` of the block, and the reduction over the
  64 sublanes is the finite sum.
-/
import proofs.«146096_g7834020348429_cont_sun_m_1168_3_alg».proof.Proof.IdealBody
import Idealize.ShloMosaic.Lib.ValueIdx
import Idealize.ShloMosaic.Lib.Pipeline.Value
import Idealize.ShloMosaic.PureOps.Ideal.Laws

set_option maxRecDepth 16384

noncomputable section

namespace Cert.KernelIdeal.Pay

open Cert.KernelIdeal Cert.KernelIdeal.Gen Cert.KernelIdeal.Body
open Idealize.ShloMosaic Idealize.ShloMosaic.ValueIdx

theorem zero_off : (![0] : Fin 1 → Nat) = fun _ => 0 := funext fun a => by fin_cases a; rfl

/-- The first half, its unit axis dropped, at sublane `k` and lane `j` is entry `(0, k, j)` of the block; -/
theorem first_apply (x : Vec Ideal S2x64x16384 .f32) (k : Fin 64) (j : Fin 16384) :
    shapeCast S64x16384 (View.ld x rFirst) Facts₀.shapeCasts_S1x64x16384_S64x16384 (ix2 k j) = x (ix3 (0 : Fin 2) k j) := by
  refine (shapeCast_dropUnit_apply ![64, 16384] (View.ld x rFirst) Facts₀.shapeCasts_S1x64x16384_S64x16384 (ix2 k j)).trans ?_
  show x (rFirst.idx _) = _
  refine congrArg x (funext fun a => Fin.ext ?_)
  match a with
  | ⟨0, _⟩ => rfl
  | ⟨1, _⟩ => show 0 + 1 * k.val = k.val; omega
  | ⟨2, _⟩ => show 0 + 1 * j.val = j.val; omega

/-- the second half likewise, at `(1, k, j)`. -/
theorem second_apply (x : Vec Ideal S2x64x16384 .f32) (k : Fin 64) (j : Fin 16384) :
    shapeCast S64x16384 (View.ld x rSecond) Facts₀.shapeCasts_S1x64x16384_S64x16384 (ix2 k j) = x (ix3 (1 : Fin 2) k j) := by
  refine (shapeCast_dropUnit_apply ![64, 16384] (View.ld x rSecond) Facts₀.shapeCasts_S1x64x16384_S64x16384 (ix2 k j)).trans ?_
  show x (rSecond.idx _) = _
  refine congrArg x (funext fun a => Fin.ext ?_)
  match a with
  | ⟨0, _⟩ => rfl
  | ⟨1, _⟩ => show 0 + 1 * k.val = k.val; omega
  | ⟨2, _⟩ => show 0 + 1 * j.val = j.val; omega

/-- The reduction over the 64 sublanes, at lane `j`, is the finite sum down the column. -/
theorem lane_sum (src : FVec Ideal S64x16384 .f32) (j : Fin 16384) :
    multiReduction .add [0] S16384 src 0x00000000#32 Facts₀.reduces_S64x16384_S16384 (.inl rfl) rfl (ix1 j)
      = ∑ k : Fin 64, src (ix2 k j) := by
  refine (Ideal.multiReduction_add_single src 0x00000000#32 Facts₀.reduces_S64x16384_S16384 (.inl rfl) rfl (ix1 j)).trans ?_
  refine Finset.sum_congr rfl fun k _ => congrArg src ?_
  exact funext fun a => Fin.ext (by match a with | ⟨0, _⟩ => rfl | ⟨1, _⟩ => rfl)

/-- What the body leaves in the output block, at lane `j`: the column sum of the products. -/
theorem laneSums_apply (x : Vec Ideal S2x64x16384 .f32) (j : Fin 16384) :
    laneSums (F := Ideal) x (ix1 j) = ∑ k : Fin 64, x (ix3 (0 : Fin 2) k j) * x (ix3 (1 : Fin 2) k j) := by
  unfold laneSums
  rw [View.canon_unit_zero zero_off]
  unfold k0_pay1
  exact (lane_sum _ j).trans
    (Finset.sum_congr rfl fun k _ => congrArg₂ (· * ·) (first_apply x k j) (second_apply x k j))

end Cert.KernelIdeal.Pay

end
-- ==== Proof.RowDot.lean ====
/-
  The function both programs compute, over the extended reals.

  The argument is a pair of matrices stacked on the leading axis, `x : [2, 800000, 64]`. For every row `r` the
  result is the dot product of row `r` of the first matrix with row `r` of the second:
  `rowDot x r = ∑ k, x (0, r, k) * x (1, r, k)`.

  The same number read off the transposed pair `z : [2, 64, 800000]`, `z (a, k, r) = x (a, r, k)`, is a sum down
  a column: `colDot z r = ∑ k, z (0, k, r) * z (1, k, r)`.
-/
import Idealize.ShloMosaic.Lib.ValueIdx

noncomputable section

namespace Cert.RowDot

open Idealize.ShloMosaic Idealize.ShloMosaic.ValueIdx

/-- The dot product of row `r` of the first matrix with row `r` of the second. -/
def rowDot (x : (⟨3, ![2, 800000, 64]⟩ : Shape).Idx → EReal) : (⟨1, ![800000]⟩ : Shape).Idx → EReal :=
  fun i => ∑ k : Fin 64, x (ix3 (0 : Fin 2) (i 0) k) * x (ix3 (1 : Fin 2) (i 0) k)

/-- The same sum read down column `r` of the transposed pair. -/
def colDot (z : (⟨3, ![2, 64, 800000]⟩ : Shape).Idx → EReal) : (⟨1, ![800000]⟩ : Shape).Idx → EReal :=
  fun i => ∑ k : Fin 64, z (ix3 (0 : Fin 2) k (i 0)) * z (ix3 (1 : Fin 2) k (i 0))

/-- A column sum of the transposed pair is the row sum of the pair. -/
theorem colDot_eq_rowDot (x : (⟨3, ![2, 800000, 64]⟩ : Shape).Idx → EReal)
    (z : (⟨3, ![2, 64, 800000]⟩ : Shape).Idx → EReal)
    (hz : ∀ (a : Fin 2) (k : Fin 64) (r : Fin 800000), z (ix3 a k r) = x (ix3 a r k)) : colDot z = rowDot x := by
  funext i
  unfold colDot rowDot
  exact Finset.sum_congr rfl fun k _ => congrArg₂ (· * ·) (hz 0 k (i 0)) (hz 1 k (i 0))

end Cert.RowDot

end
-- ==== Proof.IdealRun.lean ====
/-
  The idealized kernel's run, and the array it leaves.

  The region walks 49 grid points. At point `t` the input window stages columns `16384 t … 16384 t + 16383` of the
  transposed pair `z : [2, 64, 800000]` and the output window writes back rows `16384 t …` of the result. The
  last block overhangs both arrays (800000 = 48 · 16384 + 13568): there the fetch fills only the first 13568 lanes
  of the staging block and the rest holds words nothing names, and the write-back moves only the first 13568 lanes
  of the output block.

  A lane `j` of the output block depends on lane `j` of the input block alone (`laneSums_apply`), so on the lanes
  that are moved the body's result does not see the unnamed words: at lane `j` of point `t` it is the column sum
  `colDot z (16384 t + j)`. The blocks' moved parts cover the 800000 rows, so the result array ends at `colDot z`,
  and `z` is the host's transpose of the argument, which makes it `rowDot` of the argument.
-/
import proofs.«146096_g7834020348429_cont_sun_m_1168_3_alg».proof.Proof.IdealPay
import proofs.«146096_g7834020348429_cont_sun_m_1168_3_alg».proof.Proof.RowDot

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Body Cert.KernelIdeal.Pay Cert.RowDot Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided over the grid -/

/-- The input window's blocks are whole on the two leading axes and start at zero there; on the lane axis they move
    with the output window's blocks and are cut alike. -/
theorem in_facts : ∀ t : Fin cfg0.N, win0_0.xsize (grid0.coords t) (0 : Fin 3) = 2
    ∧ win0_0.xsize (grid0.coords t) (1 : Fin 3) = 64
    ∧ win0_0.xsize (grid0.coords t) (2 : Fin 3) = win0_1.xsize (grid0.coords t) (0 : Fin 1)
    ∧ win0_0.index t (0 : Fin 3) = 0 ∧ win0_0.index t (1 : Fin 3) = 0
    ∧ win0_0.index t (2 : Fin 3) = win0_1.index t (0 : Fin 1) :=
  (by decide +kernel : ∀ t : Fin grid0.N, _)

/-- The output window's block at point `t` starts at row `16384 t`; it has 16384 rows but for the last, which has
    13568. -/
theorem out_facts : ∀ t : Fin cfg0.N, win0_1.index t (0 : Fin 1) = t.val
    ∧ (t.val < 48 → win0_1.xsize (grid0.coords t) (0 : Fin 1) = 16384)
    ∧ (t.val = 48 → win0_1.xsize (grid0.coords t) (0 : Fin 1) = 13568) :=
  (by decide +kernel : ∀ t : Fin grid0.N, _)

/-! ## The proof data -/

/-- The column sums of the transposed pair as the region finds it. -/
def colSums (c : Dev nD) : S800000.Idx → Elt Ideal .f32 := colDot (fun i => V m c main_v0 i)

/-- The input's staging block after the body at point `t`: the fetched block on the moved part, a filler nothing reads
    elsewhere. -/
def inAfter (c : Dev nD) (t : Fin cfg0.N) : S2x64x16384.Idx → Elt Ideal .f32 :=
  win0_0.fill (α := Elt Ideal .f32) (grid0.coords t) (fun _ => Scalar.ofBits (F := Ideal) .f32 0#32) (iblk m c 0 t)

/-- The output's: the column sums of the block's rows on the moved part, the filler elsewhere. -/
def outAfter (c : Dev nD) (t : Fin cfg0.N) : S16384.Idx → Elt Ideal .f32 :=
  win0_1.fill (α := Elt Ideal .f32) (grid0.coords t) (fun _ => Scalar.ofBits (F := Ideal) .f32 0#32)
    ((win0_1.blk t).view.read (Elt Ideal) (colSums m c))

/-- The proof data: the arrays as the region finds them, the two staging blocks after the body as above, the region's
    invariant the scoped rest and the generator register. -/
def dats (_ : Fin 1) (c : Dev nD) : Dat τ (Elt Ideal) Unit ℕ (UR sig nD τ) ℕ cfg0 c where
  A w := V m c (Pipeline.arrRef spec0 w)
  after w t := match w with
    | ⟨0, _⟩ => inAfter m c t
    | ⟨1, _⟩ => outAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = inAfter m c t := by dsimp only [dats]
theorem after_out (c : Dev nD) (t : Fin cfg0.N) : (dats m 0 c).after 1 t = outAfter m c t := by dsimp only [dats]

/-- The input's staging block as the body finds it: just fetched, the block on the moved part and `d` elsewhere. -/
theorem before_in (c : Dev nD) (t : Fin cfg0.N) (d) :
    (dats m 0 c).before 0 t d = win0_0.fill (grid0.coords t) d (iblk m c 0 t) := by
  unfold Dat.before; rw [if_pos (fetch0_0 t)]; rfl

/-! ## A moved lane of the body's result -/

/-- An entry of the fetched block above a moved lane is the entry of the transposed pair above the lane's row,
    whatever fills the unmoved lanes. -/
theorem fetched_entry (c : Dev nD) (t : Fin cfg0.N) (d : S2x64x16384.Idx → Elt Ideal .f32) (a : Fin 2) (k : Fin 64)
    (y : (win0_1.xblock (grid0.coords t)).Idx) (hj : (y 0).val < 16384) :
    win0_0.fill (grid0.coords t) d (iblk m c 0 t) (ix3 a k (⟨(y 0).val, hj⟩ : Fin 16384))
      = V m c main_v0 (ix3 a k ((win0_1.blk t).view.emb y 0)) := by
  obtain ⟨s0, s1, s2, i0, i1, i2⟩ := in_facts t
  have hy : (y 0).val < win0_1.xsize (grid0.coords t) (0 : Fin 1) := (y 0).isLt
  have hm : win0_0.moved (grid0.coords t) (ix3 a k (⟨(y 0).val, hj⟩ : Fin 16384)) = true :=
    (win0_0.moved_iff _ _).mpr fun b => by
      match b with
      | ⟨0, _⟩ => show a.val < win0_0.xsize (grid0.coords t) (0 : Fin 3); rw [s0]; exact a.isLt
      | ⟨1, _⟩ => show k.val < win0_0.xsize (grid0.coords t) (1 : Fin 3); rw [s1]; exact k.isLt
      | ⟨2, _⟩ => show (y 0).val < win0_0.xsize (grid0.coords t) (2 : Fin 3); rw [s2]; exact hy
  unfold Window.fill
  rw [dif_pos hm]
  show V m c main_v0 ((win0_0.blk t).view.emb _) = _
  refine congrArg (V m c main_v0) (funext fun b => Fin.ext ?_)
  match b with
  | ⟨0, _⟩ => show win0_0.index t (0 : Fin 3) * 2 + 1 * a.val = a.val; rw [i0]; omega
  | ⟨1, _⟩ => show win0_0.index t (1 : Fin 3) * 64 + 1 * k.val = k.val; rw [i1]; omega
  | ⟨2, _⟩ =>
    show win0_0.index t (2 : Fin 3) * 16384 + 1 * (y 0).val = win0_1.index t (0 : Fin 1) * 16384 + 1 * (y 0).val
    rw [i2]

/-- On the lanes the write-back moves, what the body computes from a fetched block is the block of the column sums:
    nothing there depends on what fills the unmoved lanes of the input. -/
theorem cut_laneSums (c : Dev nD) (t : Fin cfg0.N) (d : S2x64x16384.Idx → Elt Ideal .f32) :
    win0_1.cut (grid0.coords t) (laneSums (F := Ideal) (win0_0.fill (grid0.coords t) d (iblk m c 0 t)))
      = (win0_1.blk t).view.read (Elt Ideal) (colSums m c) := by
  funext y
  have hy : (y 0).val < win0_1.xsize (grid0.coords t) (0 : Fin 1) := (y 0).isLt
  have hle : win0_1.xsize (grid0.coords t) (0 : Fin 1) ≤ 16384 := win0_1.xsize_le _ _
  have hj : (y 0).val < 16384 := lt_of_lt_of_le hy hle
  have hx : win0_1.xinj (grid0.coords t) y = ix1 (⟨(y 0).val, hj⟩ : Fin 16384) :=
    funext fun a => by match a with | ⟨0, _⟩ => rfl
  show laneSums (F := Ideal) _ (win0_1.xinj (grid0.coords t) y) = colSums m c ((win0_1.blk t).view.emb y)
  rw [hx, laneSums_apply]
  unfold colSums colDot
  exact Finset.sum_congr rfl fun k _ =>
    congrArg₂ (· * ·) (fetched_entry m c t d 0 k y hj) (fetched_entry m c t d 1 k y hj)

/-! ## The body obligation -/

/-- The body at any point: it finds the input's block just fetched and the output's at anything; it leaves the input's
    as found and the output's at the lane sums, which on the moved lanes are the column sums. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ wp frame (wpE (defs₀ (F := Ideal)) Variants.none c none) Set.univ (bodyAt0 t) (fun _ =>
        iprop((dats m 0 c).Φ t.succ ∗ (dats m 0 c).owesAt () t.succ
          ∗ (∃ d, owns (c : Thread nD τ) (st0_0 t) fullShare
              (win0_0.fill (grid0.coords t) d (win0_0.cut (grid0.coords t) ((dats m 0 c).after 0 t))))
          ∗ (∃ d, owns (c : Thread nD τ) (st0_1 t) fullShare
              (win0_1.fill (grid0.coords t) d (win0_1.cut (grid0.coords t) ((dats m 0 c).after 1 t)))))) := by
  rw [show (dats m 0 c).Φ t.succ = (dats m 0 c).Φ t.castSucc from rfl,
    show (dats m 0 c).owesAt () t.succ = (dats m 0 c).owesAt () t.castSucc from rfl,
    after_in, after_out]
  unfold bodyAt0
  iintro ⟨HΦ, Ho, ⟨%d0, H0⟩, ⟨%d1, H1⟩⟩
  rw [before_in m c t d0]
  iapply (sound_kernel c Set.univ _ _ _ _ _ (win0_0.fill (grid0.coords t) d0 (iblk m c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show win0_0.cut (grid0.coords t) (inAfter m c t) = iblk m c 0 t from win0_0.cut_fill _ _ _]
    iexact H0
  · iexists laneSums (F := Ideal) (win0_0.fill (grid0.coords t) d0 (iblk m c 0 t))
    rw [show win0_1.cut (grid0.coords t) (outAfter m c t) = (win0_1.blk t).view.read (Elt Ideal) (colSums m c)
        from win0_1.cut_fill _ _ _, ← cut_laneSums m c t d0, win0_1.fill_cut]
    iexact H1

/-- The library's body obligation, both windows stated on their moved parts. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution terminates with the windows' arrays at what the write-backs leave and every other
    unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-! ## The result array after the run -/

/-- What point `t` writes back is block `t` of the column sums. -/
theorem flushed_eq (c : Dev nD) (t : Fin cfg0.N) :
    (dats m 0 c).flushed 1 t = ((cfg0.win 1).blk t).view.read (Elt Ideal) (colSums m c) := by
  show (cfg0.win 1).cut (grid0.coords t) ((dats m 0 c).after 1 t) = _
  rw [after_out]; exact win0_1.cut_fill _ _ _

/-- A row is in point `t`'s block iff it is among the block's rows inside the array. -/
theorem mem_blk (t : Fin cfg0.N) (i : S800000.Idx) :
    i ∈ ((cfg0.win 1).blk t).view.set ↔ ∀ a : Fin 1, win0_1.index t a * S16384.size a ≤ (i a).val
      ∧ (i a).val < win0_1.index t a * S16384.size a + win0_1.xsize (grid0.coords t) a := by
  show i ∈ ((View.whole main_v1).slice (win0_1.rect t)).set ↔ _
  rw [View.set_slice_whole, Rect.mem_set_unit]
  exact Iff.rfl

/-- Every row is in some point's block: row `r` in point `r / 16384`'s. -/
theorem cover (i : S800000.Idx) :
    ∃ t : Fin cfg0.N, (cfg0.win 1).flush t = true ∧ i ∈ ((cfg0.win 1).blk t).view.set := by
  have hi : (i 0).val < 800000 := (i 0).isLt
  have hN : cfg0.N = 49 := N_0
  have ht : (i 0).val / 16384 < cfg0.N := by rw [hN]; omega
  obtain ⟨e0, e1, e2⟩ := out_facts ⟨(i 0).val / 16384, ht⟩
  have e0' : win0_1.index ⟨(i 0).val / 16384, ht⟩ (0 : Fin 1) = (i 0).val / 16384 := e0
  refine ⟨⟨(i 0).val / 16384, ht⟩, flush0_1 _, ?_⟩
  rw [mem_blk]
  intro a
  match a with
  | ⟨0, _⟩ =>
    show win0_1.index ⟨(i 0).val / 16384, ht⟩ (0 : Fin 1) * 16384 ≤ (i 0).val
      ∧ (i 0).val < win0_1.index ⟨(i 0).val / 16384, ht⟩ (0 : Fin 1) * 16384
          + win0_1.xsize (grid0.coords ⟨(i 0).val / 16384, ht⟩) (0 : Fin 1)
    rw [e0']
    by_cases h48 : (i 0).val / 16384 < 48
    · rw [e1 h48]; omega
    · have h : (i 0).val / 16384 = 48 := by omega
      rw [e2 h]; omega

/-- The result array ends holding the column sums of the transposed pair. -/
theorem final (c : Dev nD) : (dats m 0 c).arrAt 1 cfg0.N = colSums m c :=
  (dats m 0 c).arrAt_eq_of_cover 1 (colSums m c) (fun t _ => flushed_eq m c t) cover

/-! ## The transposed pair is the host's transpose of the argument -/

theorem pair_transposed (c : Dev nD) :
    (V m c main_v0 : S2x64x800000.Idx → Elt Ideal .f32)
      = transpose S2x64x800000 [0, 2, 1] (m ((c.tc : Thread nD τ).loc main_arg0)) Facts₀.transposes_S2x800000x64_S2x64x800000_0_2_1 := by
  dsimp only [V, hostOps0]; after_results

/-- So the column sums are the argument's row dot products. -/
theorem colSums_eq (c : Dev nD) : colSums m c = rowDot (fun i => m ((c.tc : Thread nD τ).loc main_arg0) i) := by
  unfold colSums
  refine colDot_eq_rowDot _ _ fun a k r => ?_
  show (V m c main_v0 : S2x64x800000.Idx → Elt Ideal .f32) (ix3 a k r) = _
  rw [pair_transposed]
  exact transpose_apply [0, 2, 1] _ _ (ix3 a k r) (ix3 a r k)
    (fun b => by match b with | ⟨0, _⟩ => rfl | ⟨1, _⟩ => rfl | ⟨2, _⟩ => rfl)

/-- The run, read: the result is the argument's row dot products and the argument ends unchanged. -/
theorem run : θ_run defs (onTc (τ := τ) (main (F := Ideal))) ⟨m, fun _ => 0, ρ⟩ fun r => ∀ c : Dev nD,
      r.2.mem ((c.tc : Thread nD τ).loc main_v1) = rowDot (fun i => m ((c.tc : Thread nD τ).loc main_arg0) i)
      ∧ r.2.mem ((c.tc : Thread nD τ).loc main_arg0) = m ((c.tc : Thread nD τ).loc main_arg0) :=
  (θ_run defs _ _).mono (fun r h c => ⟨((h c).1 1).trans ((final m c).trans (colSums_eq m c)),
      ((h c).2 main_arg0 (Pipeline.mem_restRefs_of main_arg0 (by decide) (by decide))).trans (V_main_arg0 m c)⟩)
    (run_main m ρ)

/-- The frame: the argument ends as it was launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Run

end
-- ==== Proof.RefRows.lean ====
/-
  The reference, read at an index: it slices the two matrices out of the stacked argument, multiplies them entry by
  entry and sums each row, starting from zero. At row `r` that is `0 + ∑ k, x (0, r, k) * x (1, r, k)`: the row dot
  product.
-/
import proofs.«146096_g7834020348429_cont_sun_m_1168_3_alg».proof.Proof.Gen.ReferenceIdeal.Read
import proofs.«146096_g7834020348429_cont_sun_m_1168_3_alg».proof.Proof.RowDot
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- Row `r`, column `k` of the first matrix, reached through the slice and the reshape, is entry `(0, r, k)` of
    the argument; -/
theorem idx_first (i : S800000.Idx) (k : Fin 64) :
    idx_main_v0 (idx_main_v1 (idx_main_v5 i k)) = ix3 (0 : Fin 2) (i 0) k :=
  funext fun a => Fin.ext (by
    have h0 : (i 0).val < 800000 := (i 0).isLt
    have h1 : k.val < 64 := k.isLt
    match a with
    | ⟨0, _⟩ => rfl
    | ⟨1, _⟩ => show ((i 0).val * 64 + k.val) / 64 % 800000 = (i 0).val; omega
    | ⟨2, _⟩ => show ((i 0).val * 64 + k.val) % 64 = k.val; omega)

/-- of the second matrix, entry `(1, r, k)`. -/
theorem idx_second (i : S800000.Idx) (k : Fin 64) :
    idx_main_v2 (idx_main_v3 (idx_main_v5 i k)) = ix3 (1 : Fin 2) (i 0) k :=
  funext fun a => Fin.ext (by
    have h0 : (i 0).val < 800000 := (i 0).isLt
    have h1 : k.val < 64 := k.isLt
    match a with
    | ⟨0, _⟩ => rfl
    | ⟨1, _⟩ => show ((i 0).val * 64 + k.val) / 64 % 800000 = (i 0).val; omega
    | ⟨2, _⟩ => show ((i 0).val * 64 + k.val) % 64 = k.val; omega)

/-- The reference's result is the row dot product of the stacked pair. -/
theorem ref_rows (x : (⟨S2x800000x64, .f32⟩ : BufTy).Contents (Elt Ideal)) :
    val_main_v5 (F := Ideal) x = Cert.RowDot.rowDot x := by
  funext i
  rw [val_main_v5_apply, val_main_cst_apply]
  unfold Cert.RowDot.rowDot
  refine (congrArg (· + _) Ideal.ofBits_zero_f32).trans ((zero_add _).trans (Finset.sum_congr rfl fun k _ => ?_))
  rw [val_main_v4_apply, val_main_v1_apply, val_main_v3_apply, val_main_v0_apply, val_main_v2_apply,
    idx_first, idx_second]
  rfl

end Cert.ReferenceIdeal.RefValue

end
-- ==== Proof.lean ====
/-
  The claim: a blocked kernel that computes, for each of 800000 rows, the dot product of that row of two stacked
  [800000, 64] matrices, against the plain reference `sum(gu * gi, axis=1)`.

  The kernel transposes the stacked pair to [2, 64, 800000] on the host and streams it through a grid of 49 blocks
  of 16384 rows, the row index along the lanes: at each point it multiplies the two [64, 16384] halves of the block
  and sums over the 64 sublanes. The last block overhangs the arrays by 2816 rows; the lanes past the end hold words
  nothing names, each output lane depends on its own input lane only, and the write-back drops those lanes.

  * The word-level kernel's frame: the body runs on whole staging buffers whatever they hold, and the argument array is
    staged by no window (Proof/BitsBody.lean, Proof/BitsFrame.lean).
  * The idealized kernel: the same body with its result read at a lane as a column sum of products over the extended
    reals (Proof/IdealBody.lean, Proof/IdealPay.lean); the blocks' moved parts cover the result, which therefore ends
    at the column sums of the transposed pair, the row dot products of the argument (Proof/IdealRun.lean).
  * The reference, read at a row, is zero plus the same finite sum (Proof/RefRows.lean).
  Both sides are the one function `Cert.RowDot.rowDot` of the argument, term for term; no algebra of the extended reals
  beyond `0 + s = s` is used, and the precondition is never opened. The idealization rewrote nothing, so `preserves`
  is trivial.
-/
import proofs.«146096_g7834020348429_cont_sun_m_1168_3_alg».proof.Defs
import proofs.«146096_g7834020348429_cont_sun_m_1168_3_alg».proof.Proof.Gen.Kernel
import proofs.«146096_g7834020348429_cont_sun_m_1168_3_alg».proof.Proof.Gen.KernelIdeal
import proofs.«146096_g7834020348429_cont_sun_m_1168_3_alg».proof.Proof.Gen.ReferenceIdeal
import proofs.«146096_g7834020348429_cont_sun_m_1168_3_alg».proof.Proof.Gen.Pre_finite_inputs
import proofs.«146096_g7834020348429_cont_sun_m_1168_3_alg».proof.Proof.BitsFrame
import proofs.«146096_g7834020348429_cont_sun_m_1168_3_alg».proof.Proof.IdealRun
import proofs.«146096_g7834020348429_cont_sun_m_1168_3_alg».proof.Proof.RefRows
import Idealize.ShloMosaic.Adequacy
import Idealize.ShloMosaic.Init

noncomputable section

namespace Cert.Proof

open Idealize.ShloMosaic Idealize.ShloMosaic.TcCoe Idealize.SL.Sem

/-- The word-level kernel terminates, faults nowhere and leaves its argument unchanged. -/
theorem frame_kernel : Cert.frame_Kernel := fun m ρ _ => Cert.Kernel.FrameRun.frame (F := Bits) m ρ

/-- So does the idealized kernel. -/
theorem frame_ideal : Cert.frame_KernelIdeal := fun m ρ _ => Cert.KernelIdeal.Run.frame m ρ

/-- So does the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument both programs end with the argument's row dot products. -/
theorem algebraic : Cert.algebraic_KernelIdeal_ReferenceIdeal := by
  intro m ρ m' ρ' _ hagree
  refine ⟨fun c => Cert.RowDot.rowDot (fun i => m ((c.tc : Thread Cert.KernelIdeal.nD Cert.KernelIdeal.τ).loc Cert.KernelIdeal.main_arg0) i),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_rows, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
